-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x600000 : Shape := ⟨2, ![2, 600000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S128x64 .f32) (main_arg6 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128x64 .f32) (main_arg6 : FVec F S64 .f32) (main_arg7 : IVec S2x600000 32) (main_arg8 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S512x64 : Shape := ⟨2, ![512, 64]⟩
abbrev S1x64 : Shape := ⟨2, ![1, 64]⟩

abbrev nBuf : Space → Nat
  | .hbm => 106
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S2x600000, .i32⟩
  | .hbm, ⟨8, _⟩ => ⟨S50000, .i32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S50000, .i32⟩
  | .hbm, ⟨14, _⟩ => ⟨S650000, .i32⟩
  | .hbm, ⟨15, _⟩ => ⟨S650000, .i32⟩
  | .hbm, ⟨16, _⟩ => ⟨S_, .f32⟩
  | .hbm, ⟨17, _⟩ => ⟨S650000, .f32⟩
  | .hbm, ⟨18, _⟩ => ⟨S_, .f32⟩
  | .hbm, ⟨19, _⟩ => ⟨S50000, .f32⟩
  | .hbm, ⟨20, _⟩ => ⟨S650000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S650000, .i32⟩
  | .hbm, ⟨32, _⟩ => ⟨S650000, .i1⟩
  | .hbm, ⟨33, _⟩ => ⟨S_, .i32⟩
  | .hbm, ⟨34, _⟩ => ⟨S650000, .i32⟩
  | .hbm, ⟨35, _⟩ => ⟨S650000, .i32⟩
  | .hbm, ⟨36, _⟩ => ⟨S650000, .i32⟩
  | .hbm, ⟨37, _⟩ => ⟨S650000x1, .i32⟩
  | .hbm, ⟨38, _⟩ => ⟨S650000, .f32⟩
  | .hbm, ⟨39, _⟩ => ⟨S_, .i32⟩
  | .hbm, ⟨40, _⟩ => ⟨S650000, .i32⟩
  | .hbm, ⟨41, _⟩ => ⟨S650000, .i1⟩
  | .hbm, ⟨42, _⟩ => ⟨S_, .i32⟩
  | .hbm, ⟨43, _⟩ => ⟨S650000, .i32⟩
  | .hbm, ⟨44, _⟩ => ⟨S650000, .i32⟩
  | .hbm, ⟨45, _⟩ => ⟨S650000, .i32⟩
  | .hbm, ⟨46, _⟩ => ⟨S650000x1, .i32⟩
  | .hbm, ⟨47, _⟩ => ⟨S650000, .f32⟩
  | .hbm, ⟨48, _⟩ => ⟨S650000, .f32⟩
  | .hbm, ⟨49, _⟩ => ⟨S50000x128, .f32⟩
  | .hbm, ⟨50, _⟩ => ⟨S_, .i32⟩
  | .hbm, ⟨51, _⟩ => ⟨S650000, .i32⟩
  | .hbm, ⟨52, _⟩ => ⟨S650000, .i1⟩
  | .hbm, ⟨53, _⟩ => ⟨S_, .i32⟩
  | .hbm, ⟨54, _⟩ => ⟨S650000, .i32⟩
  | .hbm, ⟨55, _⟩ => ⟨S650000, .i32⟩
  | .hbm, ⟨56, _⟩ => ⟨S650000, .i32⟩
  | .hbm, ⟨57, _⟩ => ⟨S650000x1, .i32⟩
  | .hbm, ⟨58, _⟩ => ⟨S650000x128, .f32⟩
  | .hbm, ⟨59, _⟩ => ⟨S650000x1, .f32⟩
  | .hbm, ⟨60, _⟩ => ⟨S650000x128, .f32⟩
  | .hbm, ⟨61, _⟩ => ⟨S650000x128, .f32⟩
  | .hbm, ⟨62, _⟩ => ⟨S_, .f32⟩
  | .hbm, ⟨63, _⟩ => ⟨S50000x128, .f32⟩
  | .hbm, ⟨64, _⟩ => ⟨S650000x1, .i32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S650000, .i32⟩
  | .hbm, ⟨69, _⟩ => ⟨S650000, .i1⟩
  | .hbm, ⟨70, _⟩ => ⟨S_, .i32⟩
  | .hbm, ⟨71, _⟩ => ⟨S650000, .i32⟩
  | .hbm, ⟨72, _⟩ => ⟨S650000, .i32⟩
  | .hbm, ⟨73, _⟩ => ⟨S650000, .i32⟩
  | .hbm, ⟨74, _⟩ => ⟨S650000x1, .i32⟩
  | .hbm, ⟨75, _⟩ => ⟨S650000x128, .f32⟩
  | .hbm, ⟨76, _⟩ => ⟨S650000x1, .f32⟩
  | .hbm, ⟨77, _⟩ => ⟨S650000x128, .f32⟩
  | .hbm, ⟨78, _⟩ => ⟨S650000x128, .f32⟩
  | .hbm, ⟨79, _⟩ => ⟨S_, .f32⟩
  | .hbm, ⟨80, _⟩ => ⟨S50000x128, .f32⟩
  | .hbm, ⟨81, _⟩ => ⟨S650000x1, .i32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S_, .f32⟩
  | .hbm, ⟨87, _⟩ => ⟨S50000x128, .f32⟩
  | .hbm, ⟨88, _⟩ => ⟨S50000x128, .f32⟩
  | .hbm, ⟨89, _⟩ => ⟨S_, .f32⟩
  | .hbm, ⟨90, _⟩ => ⟨S512x128, .f32⟩
  | .hbm, ⟨91, _⟩ => ⟨S50000x1, .i32⟩
  | .hbm, ⟨92, _⟩ => ⟨S512x128, .f32⟩
  | .hbm, ⟨93, _⟩ => ⟨S_, .f32⟩
  | .hbm, ⟨94, _⟩ => ⟨S50000, .f32⟩
  | .hbm, ⟨95, _⟩ => ⟨S_, .f32⟩
  | .hbm, ⟨96, _⟩ => ⟨S512, .f32⟩
  | .hbm, ⟨97, _⟩ => ⟨S50000x1, .i32⟩
  | .hbm, ⟨98, _⟩ => ⟨S512, .f32⟩
  | .hbm, ⟨99, _⟩ => ⟨S_, .f32⟩
  | .hbm, ⟨100, _⟩ => ⟨S512, .f32⟩
  | .hbm, ⟨101, _⟩ => ⟨S512, .f32⟩
  | .hbm, ⟨102, _⟩ => ⟨S512x1, .f32⟩
  | .hbm, ⟨103, _⟩ => ⟨S512x128, .f32⟩
  | .hbm, ⟨104, _⟩ => ⟨S512x128, .f32⟩
  | .hbm, ⟨105, _⟩ => ⟨S512x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S512x128, .f32⟩
  | .local _ .vmem, ⟨12, _⟩ => ⟨S128x64, .f32⟩
  | .local _ .vmem, ⟨13, _⟩ => ⟨S64, .f32⟩
  | .local _ .vmem, ⟨14, _⟩ => ⟨S512x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_c_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call1_cst : Ref sig .tc := ⟨.hbm, 86, rfl⟩
abbrev main_call1_v0 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_cst_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_15 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem1_0 : DmaSem sig := 12
abbrev cc2_sem2_0 : DmaSem sig := 13
abbrev cc2_sem3_0 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x64_S512x64_1_0_0_1_n_n_wf : DotDims.WF S512x128 S128x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S512x128.size a
  hwx2_0 : ∀ i : grid2.Coords, EltTy.bits .f32 = 32 ∨ (Rect.block (s := S512x128) S512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x64.size a ≤ S512x64.size a
  hwx2_3 : ∀ i : grid2.Coords, EltTy.bits .f32 = 32 ∨ (Rect.block (s := S512x64) S512x64.size (cc2_transform_3 i) (hinb2_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v73) S512x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v74) S512x64.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S512x64 : Shape := ⟨2, ![512, 64]⟩
abbrev S1x64 : Shape := ⟨2, ![1, 64]⟩

abbrev nBuf : Space → Nat
  | .hbm => 151
  | .vmem => 0
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S128x128, .f32⟩
  | 4 => ⟨S128, .f32⟩
  | 5 => ⟨S128x64, .f32⟩
  | 6 => ⟨S64, .f32⟩
  | 7 => ⟨S2x600000, .i32⟩
  | 8 => ⟨S50000, .i32⟩
  | 9 => ⟨S1x600000, .i32⟩
  | 10 => ⟨S600000, .i32⟩
  | 11 => ⟨S1x600000, .i32⟩
  | 12 => ⟨S600000, .i32⟩
  | 13 => ⟨S50000x128, .f32⟩
  | 14 => ⟨S50000, .i32⟩
  | 15 => ⟨S650000, .i32⟩
  | 16 => ⟨S650000, .i32⟩
  | 17 => ⟨S_, .f32⟩
  | 18 => ⟨S650000, .f32⟩
  | 19 => ⟨S_, .f32⟩
  | 20 => ⟨S50000, .f32⟩
  | 21 => ⟨S650000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S650000, .i32⟩
  | 33 => ⟨S650000, .i1⟩
  | 34 => ⟨S_, .i32⟩
  | 35 => ⟨S650000, .i32⟩
  | 36 => ⟨S650000, .i32⟩
  | 37 => ⟨S650000, .i32⟩
  | 38 => ⟨S650000x1, .i32⟩
  | 39 => ⟨S650000, .f32⟩
  | 40 => ⟨S_, .i32⟩
  | 41 => ⟨S650000, .i32⟩
  | 42 => ⟨S650000, .i1⟩
  | 43 => ⟨S_, .i32⟩
  | 44 => ⟨S650000, .i32⟩
  | 45 => ⟨S650000, .i32⟩
  | 46 => ⟨S650000, .i32⟩
  | 47 => ⟨S650000x1, .i32⟩
  | 48 => ⟨S650000, .f32⟩
  | 49 => ⟨S650000, .f32⟩
  | 50 => ⟨S_, .i32⟩
  | 51 => ⟨S650000, .i32⟩
  | 52 => ⟨S650000, .i1⟩
  | 53 => ⟨S_, .i32⟩
  | 54 => ⟨S650000, .i32⟩
  | 55 => ⟨S650000, .i32⟩
  | 56 => ⟨S650000, .i32⟩
  | 57 => ⟨S650000x1, .i32⟩
  | 58 => ⟨S650000x128, .f32⟩
  | 59 => ⟨S650000x1, .f32⟩
  | 60 => ⟨S650000x128, .f32⟩
  | 61 => ⟨S650000x128, .f32⟩
  | 62 => ⟨S_, .f32⟩
  | 63 => ⟨S50000x128, .f32⟩
  | 64 => ⟨S650000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S50000, .i32⟩
  | 74 => ⟨S650000, .i32⟩
  | 75 => ⟨S650000, .i32⟩
  | 76 => ⟨S_, .f32⟩
  | 77 => ⟨S650000, .f32⟩
  | 78 => ⟨S_, .f32⟩
  | 79 => ⟨S50000, .f32⟩
  | 80 => ⟨S650000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S650000, .i32⟩
  | 92 => ⟨S650000, .i1⟩
  | 93 => ⟨S_, .i32⟩
  | 94 => ⟨S650000, .i32⟩
  | 95 => ⟨S650000, .i32⟩
  | 96 => ⟨S650000, .i32⟩
  | 97 => ⟨S650000x1, .i32⟩
  | 98 => ⟨S650000, .f32⟩
  | 99 => ⟨S_, .i32⟩
  | 100 => ⟨S650000, .i32⟩
  | 101 => ⟨S650000, .i1⟩
  | 102 => ⟨S_, .i32⟩
  | 103 => ⟨S650000, .i32⟩
  | 104 => ⟨S650000, .i32⟩
  | 105 => ⟨S650000, .i32⟩
  | 106 => ⟨S650000x1, .i32⟩
  | 107 => ⟨S650000, .f32⟩
  | 108 => ⟨S650000, .f32⟩
  | 109 => ⟨S_, .i32⟩
  | 110 => ⟨S650000, .i32⟩
  | 111 => ⟨S650000, .i1⟩
  | 112 => ⟨S_, .i32⟩
  | 113 => ⟨S650000, .i32⟩
  | 114 => ⟨S650000, .i32⟩
  | 115 => ⟨S650000, .i32⟩
  | 116 => ⟨S650000x1, .i32⟩
  | 117 => ⟨S650000x128, .f32⟩
  | 118 => ⟨S650000x1, .f32⟩
  | 119 => ⟨S650000x128, .f32⟩
  | 120 => ⟨S650000x128, .f32⟩
  | 121 => ⟨S_, .f32⟩
  | 122 => ⟨S50000x128, .f32⟩
  | 123 => ⟨S650000x1, .i32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S50000x128, .f32⟩
  | 2 => ⟨S50000x128, .f32⟩
  | 3 => ⟨S_, .f32⟩
  | 4 => ⟨S512x128, .f32⟩
  | 5 => ⟨S50000x1, .i32⟩
  | 6 => ⟨S512x128, .f32⟩
  | 7 => ⟨S_, .f32⟩
  | 8 => ⟨S50000, .f32⟩
  | 9 => ⟨S_, .f32⟩
  | 10 => ⟨S512, .f32⟩
  | 11 => ⟨S50000x1, .i32⟩
  | 12 => ⟨S512, .f32⟩
  | 13 => ⟨S_, .f32⟩
  | 14 => ⟨S512, .f32⟩
  | 15 => ⟨S512, .f32⟩
  | 16 => ⟨S512x1, .f32⟩
  | 17 => ⟨S512x128, .f32⟩
  | 18 => ⟨S512x128, .f32⟩
  | 19 => ⟨S512x64, .f32⟩
  | 20 => ⟨S1x64, .f32⟩
  | 21 => ⟨S512x64, .f32⟩
  | 22 => ⟨S512x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_call3_cst : Ref sig .tc := ⟨.hbm, 128, rfl⟩
abbrev main_call3_v0 : Ref sig .tc := ⟨.hbm, 129, rfl⟩
abbrev main_v91 : Ref sig .tc := ⟨.hbm, 130, rfl⟩
abbrev main_cst_20 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_21 : Ref sig .tc := ⟨.hbm, 135, rfl⟩
abbrev main_v95 : Ref sig .tc := ⟨.hbm, 136, rfl⟩
abbrev main_cst_22 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_23 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  dot_S50000x128_S128x128_S50000x128_1_0_0_1_n_n_wf : DotDims.WF S50000x128 S128x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x64_S512x64_1_0_0_1_n_n_wf : DotDims.WF S512x128 S128x64 S512x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

class Facts : Prop extends Facts₀ where

variable [Facts]
-- ==== Proof.KernelRun.lean ====
/-
  The idealized kernel's run with its RESULT named. Every weakly fair execution of @main from a memory with zero counters
  terminates without a fault; in the final state the result array `main_v74` holds what the fold of buffer contents through
  @main's ten segments (seven stretches of host operations and three pipelined regions) leaves at it — `W10` at that
  buffer — and the nine argument arrays are as launched. Only the first conjunct is new: the segments, the fold and the
  thread state at each boundary are the generated frame's, and the last thread state is read against the final memory at
  one more buffer.
-/
import proofs.«157026_j18786186952946_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library theorem's implicit arguments are found by unifying its conclusion with this statement, which takes unfolding
-- plain definitions in a metavariable's type
set_option backward.isDefEq.respectTransparency.types false in
/-- The run, with the result array at the last boundary's contents and the arguments unchanged. -/
theorem run : θ_run defs (onTc (τ := τ) (main (F := F))) ⟨m, fun _ => 0, ρ⟩ (fun r => ∀ c : Dev nD,
      r.2.mem ((c.tc : Thread nD τ).loc main_v74) = W10 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v74 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.Named

end
-- ==== Proof.Spec.lean ====
/-
  The network's whole-array functions, one definition per stage, over the program's literal shapes: a two-layer graph
  convolution (50000 nodes, 128 features, 600000 edges plus one self loop per node), a mean pool over 512 graphs, and a
  final linear layer to 64 outputs.

  With s, d the edge sources and destinations followed by the self loops 0 … 49999 (`srcs`, `dsts`), the in-degree of
  node v is the number of entries of d equal to v (`degree`: ones scatter-added at d), its normalisation is
  deg^(-1/2) where the degree is positive and 0 elsewhere (`invSqrtDeg`), and edge e carries the coefficient
  invSqrtDeg[s e] · invSqrtDeg[d e] (`coef`; an index below zero counts from the end, `wrap`). One aggregation of node
  features h sends, along every edge e, coef e · h[s e] to node d e and adds up what arrives (`aggregate`); a layer is
  that aggregate of (features × weights) plus a bias row, clipped below at zero (`biasRelu`). The pool divides the sum of
  the node features of each graph by the number of its nodes, at least one (`meanPool`).
  Every function is written with the host operations themselves, so that each side's run can be read as a composition of
  them; none of them is ever opened in the proof.
-/
import proofs.«157026_j18786186952946_1_alg».proof.Proof.Gen.KernelIdeal
import Idealize.ShloMosaic.PureOps.Ideal

noncomputable section

namespace Cert.KernelIdeal.Spec

open Cert.KernelIdeal Cert.KernelIdeal.Facts₀ Idealize.ShloMosaic

variable {F : FTy → Type} [FloatOps F]

/-- The edge sources (row 0 of the 2×600000 edge list) followed by the self loops 0 … 49999. -/
def srcs (ei : (⟨S2x600000, .i32⟩ : BufTy).Contents (Elt F)) : (⟨S650000, .i32⟩ : BufTy).Contents (Elt F) :=
  concatenate S650000 0 [⟨S600000, (shapeCast _ (extractStridedSlice S1x600000 ![0, 0] ei slices_S2x600000_S1x600000_0_0) shapeCasts_S1x600000_S600000)⟩, ⟨S50000, (iotaInDim S50000 32 0)⟩] concatenates_S600000_S50000_S650000_d0

/-- The edge destinations (row 1 of the edge list) followed by the self loops 0 … 49999. -/
def dsts (ei : (⟨S2x600000, .i32⟩ : BufTy).Contents (Elt F)) : (⟨S650000, .i32⟩ : BufTy).Contents (Elt F) :=
  concatenate S650000 0 [⟨S600000, (shapeCast _ (extractStridedSlice S1x600000 ![1, 0] ei slices_S2x600000_S1x600000_1_0) shapeCasts_S1x600000_S600000)⟩, ⟨S50000, (iotaInDim S50000 32 0)⟩] concatenates_S600000_S50000_S650000_d0

/-- A node index below zero counts from the end: 50000 is added to it. -/
def wrap (x : (⟨S650000, .i32⟩ : BufTy).Contents (Elt F)) : (⟨S650000, .i32⟩ : BufTy).Contents (Elt F) :=
  select (cmpi .slt x (broadcastInDim S650000 ![] bcast_S_S650000 (constantI S_ 32 0#32))) (addi x (broadcastInDim S650000 ![] bcast_S_S650000 (constantI S_ 32 50000#32))) x

/-- The in-degree of every node, self loop included: ones added up at the destinations. -/
def degree (d : (⟨S650000, .i32⟩ : BufTy).Contents (Elt F)) : (⟨S50000, .f32⟩ : BufTy).Contents (Elt F) :=
  Host.scatterAdd scatter_S50000_S650000x1_S650000_n_0_0_1 (broadcastInDim S50000 ![] bcast_S_S50000 (constant S_ .f32 0x00000000#32)) (broadcastInDim S650000x1 ![0] bcast_S650000_S650000x1_0 d) (broadcastInDim S650000 ![] bcast_S_S650000 (constant S_ .f32 0x3F800000#32))

/-- deg^(-1/2) where the degree is positive, 0 elsewhere. -/
def invSqrtDeg (d : (⟨S650000, .i32⟩ : BufTy).Contents (Elt F)) : (⟨S50000, .f32⟩ : BufTy).Contents (Elt F) :=
  select (cmpf (F := F) .ogt (degree d) (broadcastInDim S50000 ![] bcast_S_S50000 (constant S_ .f32 0x00000000#32))) (Host.rsqrt (degree d)) (broadcastInDim S50000 ![] bcast_S_S50000 (id (constant S_ .f32 0x00000000#32)))

/-- The coefficient of every edge: the normalisation of its source times that of its destination. -/
def coef (s d : (⟨S650000, .i32⟩ : BufTy).Contents (Elt F)) : (⟨S650000, .f32⟩ : BufTy).Contents (Elt F) :=
  mulf (Host.gather gather_S50000_S650000x1_S650000_n_0_n_n_0_1_1 (invSqrtDeg (F := F) d) (broadcastInDim S650000x1 ![0] bcast_S650000_S650000x1_0 (wrap (F := F) s))) (Host.gather gather_S50000_S650000x1_S650000_n_0_n_n_0_1_1 (invSqrtDeg (F := F) d) (broadcastInDim S650000x1 ![0] bcast_S650000_S650000x1_0 (wrap (F := F) d)))

/-- One aggregation: along every edge, the coefficient times the source node's feature row, added up at the destination. -/
def aggregate (h : (⟨S50000x128, .f32⟩ : BufTy).Contents (Elt F)) (s d : (⟨S650000, .i32⟩ : BufTy).Contents (Elt F)) (cf : (⟨S650000, .f32⟩ : BufTy).Contents (Elt F)) : (⟨S50000x128, .f32⟩ : BufTy).Contents (Elt F) :=
  Host.scatterAdd scatter_S50000x128_S650000x1_S650000x128_1_0_0_1 (broadcastInDim S50000x128 ![] bcast_S_S50000x128 (constant S_ .f32 0x00000000#32)) (broadcastInDim S650000x1 ![0] bcast_S650000_S650000x1_0 d) (mulf (Host.gather gather_S50000x128_S650000x1_S650000x128_1_0_n_n_0_1_1128 h (broadcastInDim S650000x1 ![0] bcast_S650000_S650000x1_0 (wrap (F := F) s))) (broadcastInDim S650000x128 ![0, 1] bcast_S650000x1_S650000x128_0_1 (broadcastInDim S650000x1 ![0] bcast_S650000_S650000x1_0 cf)))

/-- A bias row added to every node's features, then the maximum with zero. -/
def biasRelu (a : (⟨S50000x128, .f32⟩ : BufTy).Contents (Elt F)) (b : (⟨S128, .f32⟩ : BufTy).Contents (Elt F)) : (⟨S50000x128, .f32⟩ : BufTy).Contents (Elt F) :=
  maximumf (addf a (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- The mean of the node features of each of the 512 graphs: their sum over the number of the graph's nodes, at least one. -/
def meanPool (h : (⟨S50000x128, .f32⟩ : BufTy).Contents (Elt F)) (g : (⟨S50000, .i32⟩ : BufTy).Contents (Elt F)) : (⟨S512x128, .f32⟩ : BufTy).Contents (Elt F) :=
  Host.divf (Host.scatterAdd scatter_S512x128_S50000x1_S50000x128_1_0_0_1 (broadcastInDim S512x128 ![] bcast_S_S512x128 (constant S_ .f32 0x00000000#32)) (broadcastInDim S50000x1 ![0] bcast_S50000_S50000x1_0 g) h) (broadcastInDim S512x128 ![0, 1] bcast_S512x1_S512x128_0_1 (broadcastInDim S512x1 ![0] bcast_S512_S512x1_0 (maximumf (Host.scatterAdd scatter_S512_S50000x1_S50000_n_0_0_1 (broadcastInDim S512 ![] bcast_S_S512 (constant S_ .f32 0x00000000#32)) (broadcastInDim S50000x1 ![0] bcast_S50000_S50000x1_0 g) (broadcastInDim S50000 ![] bcast_S_S50000 (constant S_ .f32 0x3F800000#32))) (broadcastInDim S512 ![] bcast_S_S512 (constant S_ .f32 0x3F800000#32)))))

/-- Node features (50000×128) times a 128×128 weight matrix, on the host. -/
def nodeProduct (x : (⟨S50000x128, .f32⟩ : BufTy).Contents (Elt F)) (w : (⟨S128x128, .f32⟩ : BufTy).Contents (Elt F)) : (⟨S50000x128, .f32⟩ : BufTy).Contents (Elt F) :=
  Host.dotGeneral (DotDims.plain 50000 128 128) none x w

/-- The last layer: pooled features (512×128) times a 128×64 weight matrix, plus a bias row. -/
def graphLinear (h1 : S64.BroadcastsInDim S1x64 (![1] : Fin 1 → Fin S1x64.rank))
    (h2 : S1x64.BroadcastsInDim S512x64 (![0, 1] : Fin 2 → Fin S512x64.rank))
    (p : (⟨S512x128, .f32⟩ : BufTy).Contents (Elt F)) (w : (⟨S128x64, .f32⟩ : BufTy).Contents (Elt F)) (b : (⟨S64, .f32⟩ : BufTy).Contents (Elt F)) : (⟨S512x64, .f32⟩ : BufTy).Contents (Elt F) :=
  addf (Host.dotGeneral (DotDims.plain 512 128 64) none p w) (broadcastInDim S512x64 ![0, 1] h2 (broadcastInDim S1x64 ![1] h1 b))

/-- The whole network as one function of the nine argument arrays. -/
def network (h1 : S64.BroadcastsInDim S1x64 (![1] : Fin 1 → Fin S1x64.rank))
    (h2 : S1x64.BroadcastsInDim S512x64 (![0, 1] : Fin 2 → Fin S512x64.rank))
    (x : (⟨S50000x128, .f32⟩ : BufTy).Contents (Elt F)) (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) (wl : (⟨S128x64, .f32⟩ : BufTy).Contents (Elt F)) (bl : (⟨S64, .f32⟩ : BufTy).Contents (Elt F))
    (ei : (⟨S2x600000, .i32⟩ : BufTy).Contents (Elt F)) (g : (⟨S50000, .i32⟩ : BufTy).Contents (Elt F)) : (⟨S512x64, .f32⟩ : BufTy).Contents (Elt F) :=
  graphLinear h1 h2
    (meanPool
      (biasRelu
        (aggregate
          (nodeProduct (biasRelu (aggregate (nodeProduct x w1) (srcs (F := F) ei) (dsts (F := F) ei) (coef (srcs (F := F) ei) (dsts (F := F) ei))) b1) w2)
          (srcs (F := F) ei) (dsts (F := F) ei) (coef (srcs (F := F) ei) (dsts (F := F) ei)))
        b2)
      g)
    wl bl

end Cert.KernelIdeal.Spec

end
-- ==== Proof.HostStages.lean ====
/-
  The host operations of the idealized kernel's @main, stretch by stretch, read at the buffers later segments use. @main
  is three pipelined regions among seven stretches of host operations; between two region boundaries the stretches
  compose, and what they leave in a buffer is a function of what a few buffers held before them. Each lemma states that
  function through the network's named stages, over an ARBITRARY valuation `W` of the buffers before the stretches:
    * before the first region (three stretches): the edge endpoints with self loops, and the edge coefficients, from
      the edge list; every argument array untouched;
    * between the first and second region (one stretch): the aggregate of the first region's product; the endpoints,
      the coefficients and the arguments untouched;
    * between the second and third region (three stretches): the aggregate of the second region's product, plus the
      second bias, clipped at zero, mean-pooled over the graphs; the last layer's weights and bias untouched.
  A buffer read after a line of operations is the last operation that writes it applied to its operands' contents, or
  what it held before when none does.
-/
import proofs.«157026_j18786186952946_1_alg».proof.Proof.Gen.KernelIdeal.Launch
import proofs.«157026_j18786186952946_1_alg».proof.Proof.Spec
import Idealize.ShloMosaic.Lib.StableHlo.Run

set_option maxRecDepth 16384

noncomputable section

namespace Cert.KernelIdeal.Stretch

open Cert.KernelIdeal Cert.KernelIdeal.Gen Cert.KernelIdeal.Spec
open Idealize.ShloMosaic Idealize.ShloMosaic.StableHlo Idealize.SL.Sem

variable {F : FTy → Type} [FloatOps F] (W : Valuation τ sig (Elt F))

/-! ## Before the first region -/

/-- The sources with self loops, from the edge list. -/
theorem pre_srcs : after hostOps0_2 (after hostOps0_1 (after hostOps0 W)) (Proc.devRef .tc main_v5) = srcs (F := F) (W (Proc.devRef .tc main_arg7)) := by
  after_results_simp
  rfl

/-- The destinations with self loops, from the edge list. -/
theorem pre_dsts : after hostOps0_2 (after hostOps0_1 (after hostOps0 W)) (Proc.devRef .tc main_v6) = dsts (F := F) (W (Proc.devRef .tc main_arg7)) := by
  after_results_simp
  rfl

/-- The edge coefficients, from the edge list. -/
theorem pre_coef : after hostOps0_2 (after hostOps0_1 (after hostOps0 W)) (Proc.devRef .tc main_v29)
    = coef (F := F) (srcs (F := F) (W (Proc.devRef .tc main_arg7))) (dsts (F := F) (W (Proc.devRef .tc main_arg7))) := by
  after_results_simp
  rfl

theorem pre_keep_arg0 : after hostOps0_2 (after hostOps0_1 (after hostOps0 W)) (Proc.devRef .tc main_arg0) = W (Proc.devRef .tc main_arg0) := by
  after_results_simp
theorem pre_keep_arg1 : after hostOps0_2 (after hostOps0_1 (after hostOps0 W)) (Proc.devRef .tc main_arg1) = W (Proc.devRef .tc main_arg1) := by
  after_results_simp
theorem pre_keep_arg2 : after hostOps0_2 (after hostOps0_1 (after hostOps0 W)) (Proc.devRef .tc main_arg2) = W (Proc.devRef .tc main_arg2) := by
  after_results_simp
theorem pre_keep_arg3 : after hostOps0_2 (after hostOps0_1 (after hostOps0 W)) (Proc.devRef .tc main_arg3) = W (Proc.devRef .tc main_arg3) := by
  after_results_simp
theorem pre_keep_arg4 : after hostOps0_2 (after hostOps0_1 (after hostOps0 W)) (Proc.devRef .tc main_arg4) = W (Proc.devRef .tc main_arg4) := by
  after_results_simp
theorem pre_keep_arg5 : after hostOps0_2 (after hostOps0_1 (after hostOps0 W)) (Proc.devRef .tc main_arg5) = W (Proc.devRef .tc main_arg5) := by
  after_results_simp
theorem pre_keep_arg6 : after hostOps0_2 (after hostOps0_1 (after hostOps0 W)) (Proc.devRef .tc main_arg6) = W (Proc.devRef .tc main_arg6) := by
  after_results_simp
theorem pre_keep_arg8 : after hostOps0_2 (after hostOps0_1 (after hostOps0 W)) (Proc.devRef .tc main_arg8) = W (Proc.devRef .tc main_arg8) := by
  after_results_simp

/-! ## Between the first and the second region -/

/-- The aggregate of the first region's product along the edges. -/
theorem mid_aggregate : after hostOps1 W (Proc.devRef .tc main_v43)
    = aggregate (F := F) (W (Proc.devRef .tc main_v30)) (W (Proc.devRef .tc main_v5)) (W (Proc.devRef .tc main_v6)) (W (Proc.devRef .tc main_v29)) := by
  after_results_simp
  rfl

theorem mid_keep_v5 : after hostOps1 W (Proc.devRef .tc main_v5) = W (Proc.devRef .tc main_v5) := by
  after_results_simp
theorem mid_keep_v6 : after hostOps1 W (Proc.devRef .tc main_v6) = W (Proc.devRef .tc main_v6) := by
  after_results_simp
theorem mid_keep_v29 : after hostOps1 W (Proc.devRef .tc main_v29) = W (Proc.devRef .tc main_v29) := by
  after_results_simp
theorem mid_keep_arg2 : after hostOps1 W (Proc.devRef .tc main_arg2) = W (Proc.devRef .tc main_arg2) := by
  after_results_simp
theorem mid_keep_arg3 : after hostOps1 W (Proc.devRef .tc main_arg3) = W (Proc.devRef .tc main_arg3) := by
  after_results_simp
theorem mid_keep_arg4 : after hostOps1 W (Proc.devRef .tc main_arg4) = W (Proc.devRef .tc main_arg4) := by
  after_results_simp
theorem mid_keep_arg5 : after hostOps1 W (Proc.devRef .tc main_arg5) = W (Proc.devRef .tc main_arg5) := by
  after_results_simp
theorem mid_keep_arg6 : after hostOps1 W (Proc.devRef .tc main_arg6) = W (Proc.devRef .tc main_arg6) := by
  after_results_simp
theorem mid_keep_arg8 : after hostOps1 W (Proc.devRef .tc main_arg8) = W (Proc.devRef .tc main_arg8) := by
  after_results_simp

/-! ## Between the second and the third region -/

/-- The aggregate of the second region's product, plus the second bias, clipped at zero, mean-pooled over the graphs. -/
theorem post_pool : after hostOps2_2 (after hostOps2_1 (after hostOps2 W)) (Proc.devRef .tc main_v73)
    = meanPool (F := F) (biasRelu (F := F) (aggregate (F := F) (W (Proc.devRef .tc main_v44)) (W (Proc.devRef .tc main_v5)) (W (Proc.devRef .tc main_v6)) (W (Proc.devRef .tc main_v29))) (W (Proc.devRef .tc main_arg4)))
        (W (Proc.devRef .tc main_arg8)) := by
  after_results_simp
  rfl

theorem post_keep_arg5 : after hostOps2_2 (after hostOps2_1 (after hostOps2 W)) (Proc.devRef .tc main_arg5) = W (Proc.devRef .tc main_arg5) := by
  after_results_simp
theorem post_keep_arg6 : after hostOps2_2 (after hostOps2_1 (after hostOps2 W)) (Proc.devRef .tc main_arg6) = W (Proc.devRef .tc main_arg6) := by
  after_results_simp

end Cert.KernelIdeal.Stretch

end
-- ==== Proof.LibPlainDot.lean ====
/-
  A plain matrix product — M×K by K×N, the left operand contracted on its columns and the right on its rows, no batch
  axis (`DotDims.plain M K N`) — read at an index at the ideal values, for any extents.

  * `plain_lhsIdx` / `plain_rhsIdx`: at result index (r, c) and contraction coordinate k the operand indices are
    (r, k) and (k, c).
  * `dotGeneral_plain_apply`: the host's product at (r, c) is the sum over k of left (r, k) times right (k, c).
  * `matmul_plain_zero_apply`: the vector unit's product into a zero accumulator is the same sum.
  * `matmul_plain_zero_eq_dotGeneral`: a product of a block of rows (of any two formats) at a block index is the
    product of whole arrays (of any two formats, under any precision and schedule key) at an array index, as soon as the
    block's row is the array's row and the right operands' columns agree: no rounding is left at the ideal values, so
    the tiling of the rows and the operand formats do not matter.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The left operand's index of a plain product at result index `j` and contraction coordinate `k` is (row of `j`, `k`). -/
theorem plain_lhsIdx (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ (0 : Fin (⟨2, ![M, K]⟩ : Shape).rank)).val = (j 0).val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ => exact ((DotDims.plain M K N).lhsIdx_val_of_single rfl j _).trans hk

/-- The right operand's index of a plain product at result index `j` and contraction coordinate `k` is (`k`, column of `j`). -/
theorem plain_rhsIdx (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ (1 : Fin (⟨2, ![K, N]⟩ : Shape).rank)).val = (j 1).val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The host's plain product at the ideal values, at (r, c): the sum over k of left (r, k) times right (k, c). -/
theorem dotGeneral_plain_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j = ∑ k : Fin K, l (ix2 (j 0) k) * r (ix2 k (j 1)) := by
  rw [Ideal.dotGeneral_apply, ← Equiv.sum_comp (contrEquiv1 (DotDims.plain M K N) K rfl rfl).symm]
  refine Finset.sum_congr rfl fun k _ => ?_
  rw [plain_lhsIdx, plain_rhsIdx]
  rfl

/-- The vector unit's plain product into a zero accumulator, at the ideal values, at (r, c): the same sum. -/
theorem matmul_plain_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

/-- A block of B rows times a right operand, into zero, read at block index `y`, is the whole M-row product read at array
    index `i`, when the block's row at `y` is the array's row at `i` and the right operands agree on the column. -/
theorem matmul_plain_zero_eq_dotGeneral {B : Nat} {φ₁ φ₂ ψ₁ ψ₂ : FTy} (prec prec' : Option ContractPrecision)
    (sched : HostSchedule)
    (lb : FVec Ideal ⟨2, ![B, K]⟩ φ₁) (rb : FVec Ideal ⟨2, ![K, N]⟩ φ₂)
    (l : FVec Ideal ⟨2, ![M, K]⟩ ψ₁) (r : FVec Ideal ⟨2, ![K, N]⟩ ψ₂)
    (y : (⟨2, ![B, N]⟩ : Shape).Idx) (i : (⟨2, ![M, N]⟩ : Shape).Idx)
    (hrow : ∀ k : Fin K, (lb (ix2 (y 0) k) : EReal) = l (ix2 (i 0) k))
    (hcol : ∀ k : Fin K, (rb (ix2 k (y 1)) : EReal) = r (ix2 k (i 1))) :
    (FloatOps.matmul (DotDims.plain B K N) prec lb rb (constant ⟨2, ![B, N]⟩ .f32 0x00000000#32) y : EReal)
      = FloatOps.dotGeneral (DotDims.plain M K N) prec' sched l r i := by
  rw [matmul_plain_zero_apply, dotGeneral_plain_apply]
  exact Finset.sum_congr rfl fun k _ => by rw [hrow k, hcol k]

end Cert.LibPlainDot

end
-- ==== Proof.Region0.lean ====
/-
  REGION 0 of the idealized kernel, as one whole-array function. The region is a row-tiled matrix product: ten grid
  points, point t multiplying rows 5000·t … 5000·t + 4999 of the 50000×128 left array by the whole 128×128 right matrix
  (both rounded to bf16 on the way in, which is the identity at the ideal values) into a zero accumulator, and writing the
  5000×128 result back as block t of the output. Read at the ideal values, entry (r, c) of block t is the sum over k of
  left (5000·t + r, k) · right (k, c): exactly entry (5000·t + r, c) of the product of the whole arrays. The ten blocks
  tile the 50000 rows, so after the region the output array IS the host's product of the two input arrays as the region
  found them — whatever those arrays hold (the statement is at an arbitrary entry valuation `V`).
-/
import proofs.«157026_j18786186952946_1_alg».proof.Proof.Gen.KernelIdeal.Frame
import proofs.«157026_j18786186952946_1_alg».proof.Proof.LibPlainDot
import proofs.«157026_j18786186952946_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Cert.KernelIdeal.Spec Cert.LibPlainDot
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-block access, however spelt. -/
theorem hz : (![0, 0] : Fin 2 → Nat) = fun _ => 0 := funext fun a => by fin_cases a <;> rfl

/-- The body's stored value at block entry `y` is the whole product's entry `i`, as soon as row `y 0` of the left block
    is row `i 0` of the left array and column `y 1` of the right block is column `i 1` of the right array. -/
theorem stored_at (x0 : Vec Ideal S5000x128 .f32) (x1 : Vec Ideal S128x128 .f32)
    (X : FVec Ideal S50000x128 .f32) (Wt : FVec Ideal S128x128 .f32) (y : S5000x128.Idx) (i : S50000x128.Idx)
    (hrow : ∀ k : Fin 128, (x0 (ix2 (y 0) k) : EReal) = X (ix2 (i 0) k))
    (hcol : ∀ k : Fin 128, (x1 (ix2 k (y 1)) : EReal) = Wt (ix2 k (i 1))) :
    k0_pay1 x0 x1 y = nodeProduct (F := Ideal) X Wt i :=
  matmul_plain_zero_eq_dotGeneral (M := 50000) (K := 128) (N := 128) (B := 5000) none none .single
    (truncf .bf16 x0 bitsLt_bf16_f32) (truncf .bf16 x1 bitsLt_bf16_f32) X Wt y i hrow hcol

/-- The printed index maps, decided over the ten grid points: the left block and the output block move down the rows
    with the point, the right matrix stays, and no window moves along the columns. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the product of the input arrays as the region finds them. -/
theorem flushed_eq (c : Dev nD) (t : Fin cfg0.N) :
    (dat0 V c).flushed 2 t = ((cfg0.win 2).blk t).view.read (Elt Ideal)
      (nodeProduct (F := Ideal) (V c main_arg0) (V c main_arg1)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext y
  refine stored_at (iblk0 V c 0 t) (iblk0 V c 1 t) (V c main_arg0) (V c main_arg1) y (((cfg0.win 2).blk t).view.emb y)
    (fun k => ?_) (fun k => ?_)
  · show V c main_arg0 (((cfg0.win 0).blk t).view.emb (ix2 (y 0) k)) = V c main_arg0 (ix2 ((((cfg0.win 2).blk t).view.emb y) 0) k)
    refine congrArg _ (funext fun a => Fin.ext ?_)
    match a with
    | ⟨0, _⟩ =>
      show win0_0.index t (0 : Fin 2) * 5000 + 1 * (y 0).val = win0_2.index t (0 : Fin 2) * 5000 + 1 * (y 0).val
      rw [e0, e4]
    | ⟨1, _⟩ =>
      show win0_0.index t (1 : Fin 2) * 128 + 1 * k.val = k.val
      rw [e1]; omega
  · show V c main_arg1 (((cfg0.win 1).blk t).view.emb (ix2 k (y 1))) = V c main_arg1 (ix2 k ((((cfg0.win 2).blk t).view.emb y) 1))
    refine congrArg _ (funext fun a => Fin.ext ?_)
    match a with
    | ⟨0, _⟩ =>
      show win0_1.index t (0 : Fin 2) * 128 + 1 * k.val = k.val
      rw [e2]; omega
    | ⟨1, _⟩ =>
      show win0_1.index t (1 : Fin 2) * 128 + 1 * (y 1).val = win0_2.index t (1 : Fin 2) * 128 + 1 * (y 1).val
      rw [e3, e5]

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- The ten blocks cover the output: row r is in the block of point r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 :=
    ⟨⟨(i 0).val / 5000, by show (i 0).val / 5000 < grid0.N; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 128 ≤ (i 1).val ∧ (i 1).val < win0_2.index t (1 : Fin 2) * 128 + 128
    rw [e5]; omega

/-- THE OUTPUT ARRAY after the region: the product of the two input arrays as the region found them. -/
theorem array (c : Dev nD) :
    (dat0 V c).arrAt 2 cfg0.N
      = nodeProduct (F := Ideal) (V c main_arg0) (V c main_arg1) :=
  (dat0 V c).arrAt_eq_of_cover 2 _ (fun t _ => flushed_eq V c t) cover

end Cert.KernelIdeal.Region0

end
-- ==== Proof.LibRowBias.lean ====
/-
  A vector read as a row and repeated down the rows, for any element type and any extents R, C, read at (r, k):
  * `hostRow_apply`: the host's two steps — a length-C vector given a leading unit axis ([C] → [1, C], its axis sent to
    axis 1) and that row broadcast to [R, C] — read at (r, k) the vector's entry k;
  * `vectorRow_apply`: the vector unit's two steps — the vector cast to [1, C] and broadcast to [R, C] — read the same;
  * `hostSplat_apply`: a scalar broadcast to any shape reads the scalar everywhere.
-/
import Idealize.ShloMosaic.Lib.Pipeline.Value
import Idealize.ShloMosaic.Lib.ValueIdx
import Idealize.ShloMosaic.Lib.ValueLayout

noncomputable section

namespace Cert.LibRowBias

open Idealize.ShloMosaic Idealize.ShloMosaic.ValueIdx

variable {α : Type} {R C : Nat}

/-- A length-C vector given a leading unit axis on the host reads, at (u, k), its entry k. -/
theorem hostUnitRow_apply (h1 : (⟨1, ![C]⟩ : Shape).BroadcastsInDim ⟨2, ![1, C]⟩ (![1] : Fin 1 → Fin 2))
    (b : (⟨1, ![C]⟩ : Shape).Idx → α) (u : Fin 1) (k : Fin C) :
    broadcastInDim ⟨2, ![1, C]⟩ (![1] : Fin 1 → Fin 2) h1 b (ix2 u k) = b (ix1 k) := by
  refine broadcastInDim_apply _ h1 b (ix2 u k) (ix1 k) fun a => ?_
  match a with
  | ⟨0, _⟩ =>
    show k.val = if C = 1 then 0 else k.val
    split
    · have := k.isLt; omega
    · rfl

/-- That row broadcast to R rows reads, at (r, k), the row's entry (0, k). -/
theorem hostRows_apply (h2 : (⟨2, ![1, C]⟩ : Shape).BroadcastsInDim ⟨2, ![R, C]⟩ (![0, 1] : Fin 2 → Fin 2))
    (v : (⟨2, ![1, C]⟩ : Shape).Idx → α) (r : Fin R) (k : Fin C) :
    broadcastInDim ⟨2, ![R, C]⟩ (![0, 1] : Fin 2 → Fin 2) h2 v (ix2 r k) = v (ix2 (0 : Fin 1) k) := by
  refine broadcastInDim_apply _ h2 v (ix2 r k) (ix2 (0 : Fin 1) k) fun a => ?_
  match a with
  | ⟨0, _⟩ => rfl
  | ⟨1, _⟩ =>
    show k.val = if C = 1 then 0 else k.val
    split
    · have := k.isLt; omega
    · rfl

/-- The host's row of a vector, repeated down R rows, reads at (r, k) the vector's entry k. -/
theorem hostRow_apply (h1 : (⟨1, ![C]⟩ : Shape).BroadcastsInDim ⟨2, ![1, C]⟩ (![1] : Fin 1 → Fin 2))
    (h2 : (⟨2, ![1, C]⟩ : Shape).BroadcastsInDim ⟨2, ![R, C]⟩ (![0, 1] : Fin 2 → Fin 2))
    (b : (⟨1, ![C]⟩ : Shape).Idx → α) (r : Fin R) (k : Fin C) :
    broadcastInDim ⟨2, ![R, C]⟩ (![0, 1] : Fin 2 → Fin 2) h2 (broadcastInDim ⟨2, ![1, C]⟩ (![1] : Fin 1 → Fin 2) h1 b) (ix2 r k)
      = b (ix1 k) :=
  (hostRows_apply h2 _ r k).trans (hostUnitRow_apply h1 b 0 k)

/-- The vector unit's row of a vector, repeated down R rows, reads at (r, k) the vector's entry k. -/
theorem vectorRow_apply (h1 : (⟨1, ![C]⟩ : Shape).ShapeCasts ⟨2, ![1, C]⟩)
    (h2 : (⟨2, ![1, C]⟩ : Shape).Broadcasts ⟨2, ![R, C]⟩)
    (b : (⟨1, ![C]⟩ : Shape).Idx → α) (r : Fin R) (k : Fin C) :
    broadcastTo ⟨2, ![R, C]⟩ (shapeCast ⟨2, ![1, C]⟩ b h1) h2 (ix2 r k) = b (ix1 k) :=
  (broadcastTo_1b_ab_apply _ h2 r k).trans (shapeCast_a_1a_apply b h1 0 k)

/-- A scalar broadcast on the host to any shape reads the scalar at every index. -/
theorem hostSplat_apply {s : Shape} (h : (⟨0, ![]⟩ : Shape).BroadcastsInDim s (![] : Fin 0 → Fin s.rank))
    (v : (⟨0, ![]⟩ : Shape).Idx → α) (j : s.Idx) :
    broadcastInDim s (![] : Fin 0 → Fin s.rank) h v j = v ix0 :=
  broadcastInDim_apply _ h v j ix0 fun a => a.elim0

end Cert.LibRowBias

end
-- ==== Proof.Region1.lean ====
/-
  REGION 1 of the idealized kernel, as one whole-array function. At grid point t the body loads rows 5000·t … 5000·t + 4999
  of the aggregated features, adds the 128-entry bias as a row to each of them, takes the maximum with zero, and
  multiplies the result (rounded to bf16, the identity at the ideal values) by the whole 128×128 weight matrix into a
  zero accumulator; the 5000×128 product is written back as block t of the output. Adding a row and clipping at zero act
  on each entry by itself, so entry (r, k) of the block fed to the product is entry (5000·t + r, k) of the whole array
  `biasRelu` of the aggregated features and the bias; the product of a block of rows is the block of rows of the product.
  The ten blocks tile the 50000 rows: after the region the output array is the host's product of `biasRelu` of the
  region's first two input arrays with its third, whatever they hold.
-/
import proofs.«157026_j18786186952946_1_alg».proof.Proof.Gen.KernelIdeal.Frame
import proofs.«157026_j18786186952946_1_alg».proof.Proof.LibPlainDot
import proofs.«157026_j18786186952946_1_alg».proof.Proof.LibRowBias
import proofs.«157026_j18786186952946_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Cert.KernelIdeal.Spec Cert.LibPlainDot Cert.LibRowBias
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-block access of rank two and of rank one, however spelt. -/
theorem hz2 : (![0, 0] : Fin 2 → Nat) = fun _ => 0 := funext fun a => by fin_cases a <;> rfl
theorem hz1 : (![0] : Fin 1 → Nat) = fun _ => 0 := funext fun a => by fin_cases a; rfl

/-- Entry (p, k) of what the body feeds to its product — the loaded rows plus the bias row, clipped at zero — is
    entry (r, k) of `biasRelu` of the whole arrays, when row p of the block is row r of the array and the biases agree. -/
theorem fed_at (x0 : Vec Ideal S5000x128 .f32) (x1 : Vec Ideal S128 .f32)
    (A : (⟨S50000x128, .f32⟩ : BufTy).Contents (Elt Ideal)) (b : (⟨S128, .f32⟩ : BufTy).Contents (Elt Ideal)) (p : Fin 5000) (r : Fin 50000) (k : Fin 128)
    (hrow : (x0 (ix2 p k) : EReal) = A (ix2 r k)) (hbias : (x1 (ix1 k) : EReal) = b (ix1 k)) :
    (maximumf (addf (shapeCast S5000x128 x0 Facts₀.shapeCasts_S5000x128_S5000x128)
        (broadcastTo S5000x128 (shapeCast S1x128 x1 Facts₀.shapeCasts_S128_S1x128) Facts₀.broadcasts_S1x128_S5000x128))
      (broadcast S5000x128 (Scalar.ofBits (F := Ideal) .f32 0x00000000#32)) (ix2 p k) : EReal)
      = biasRelu (F := Ideal) A b (ix2 r k) := by
  show max ((shapeCast S5000x128 x0 Facts₀.shapeCasts_S5000x128_S5000x128 (ix2 p k) : EReal)
        + broadcastTo S5000x128 (shapeCast S1x128 x1 Facts₀.shapeCasts_S128_S1x128) Facts₀.broadcasts_S1x128_S5000x128 (ix2 p k))
      (Ideal.ofBits .f32 0x00000000#32)
    = max ((A (ix2 r k) : EReal)
        + broadcastInDim S50000x128 ![0, 1] Facts₀.bcast_S1x128_S50000x128_0_1 (broadcastInDim S1x128 ![1] Facts₀.bcast_S128_S1x128_1 b) (ix2 r k))
      (broadcastInDim S50000x128 ![] Facts₀.bcast_S_S50000x128 (constant (F := Ideal) S_ .f32 0x00000000#32) (ix2 r k))
  rw [shapeCast_self, vectorRow_apply, hostRow_apply, hostSplat_apply, hrow, hbias]
  rfl

/-- The body's stored value at block entry (p, q) is the whole product's entry (r, q'), when row p of the loaded block is
    row r of the aggregated features, the biases agree, and column q of the loaded weights is column q' of the weights. -/
theorem stored_at (x0 : Vec Ideal S5000x128 .f32) (x1 : Vec Ideal S128 .f32) (x2 : Vec Ideal S128x128 .f32)
    (A : (⟨S50000x128, .f32⟩ : BufTy).Contents (Elt Ideal)) (b : (⟨S128, .f32⟩ : BufTy).Contents (Elt Ideal)) (Wt : (⟨S128x128, .f32⟩ : BufTy).Contents (Elt Ideal))
    (p : Fin 5000) (q : Fin 128) (r : Fin 50000) (q' : Fin 128)
    (hrow : ∀ k : Fin 128, (x0 (ix2 p k) : EReal) = A (ix2 r k))
    (hbias : ∀ k : Fin 128, (x1 (ix1 k) : EReal) = b (ix1 k))
    (hcol : ∀ k : Fin 128, (x2 (ix2 k q) : EReal) = Wt (ix2 k q')) :
    k1_pay1 x0 x1 x2 (ix2 p q) = nodeProduct (F := Ideal) (biasRelu (F := Ideal) A b) Wt (ix2 r q') :=
  matmul_plain_zero_eq_dotGeneral (M := 50000) (K := 128) (N := 128) (B := 5000) none none .single
    (truncf .bf16 (maximumf (addf (shapeCast S5000x128 x0 Facts₀.shapeCasts_S5000x128_S5000x128)
        (broadcastTo S5000x128 (shapeCast S1x128 x1 Facts₀.shapeCasts_S128_S1x128) Facts₀.broadcasts_S1x128_S5000x128))
      (broadcast S5000x128 (Scalar.ofBits (F := Ideal) .f32 0x00000000#32))) Facts₀.bitsLt_bf16_f32)
    (truncf .bf16 x2 Facts₀.bitsLt_bf16_f32) (biasRelu (F := Ideal) A b) Wt (ix2 p q) (ix2 r q')
    (fun k => fed_at x0 x1 A b p r k (hrow k) (hbias k)) hcol

/-- The printed index maps, decided over the ten grid points: the feature block and the output block move down the rows
    with the point; the bias and the weights stay; no window moves along the columns. -/
theorem idx_facts : ∀ t : Fin cfg1.N,
    win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of the product of `biasRelu` of the first two input arrays with the third. -/
theorem flushed_eq (c : Dev nD) (t : Fin cfg1.N) :
    (dat1 V c).flushed 3 t = ((cfg1.win 3).blk t).view.read (Elt Ideal)
      (nodeProduct (F := Ideal) (biasRelu (F := Ideal) (V c main_v43) (V c main_arg2)) (V c main_arg3)) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S128x128) hz2, View.ld_unit_zero (S := S128) hz1]
  obtain ⟨e0, e1, e2, e3, e4, e5, e6⟩ := idx_facts t
  funext y
  obtain ⟨p, q, rfl⟩ : ∃ (p : Fin 5000) (q : Fin 128), y = ix2 p q := ⟨y 0, y 1, eq_ix2 y⟩
  show k1_pay1 (iblk1 V c 0 t) (iblk1 V c 1 t) (iblk1 V c 2 t) (ix2 p q)
    = nodeProduct (F := Ideal) (biasRelu (F := Ideal) (V c main_v43) (V c main_arg2)) (V c main_arg3) (((cfg1.win 3).blk t).view.emb (ix2 p q))
  rw [eq_ix2 (((cfg1.win 3).blk t).view.emb (ix2 p q))]
  refine stored_at (iblk1 V c 0 t) (iblk1 V c 1 t) (iblk1 V c 2 t) (V c main_v43) (V c main_arg2) (V c main_arg3) p q _ _
    (fun k => ?_) (fun k => ?_) (fun k => ?_)
  · show V c main_v43 (((cfg1.win 0).blk t).view.emb (ix2 p k)) = V c main_v43 (ix2 ((((cfg1.win 3).blk t).view.emb (ix2 p q)) 0) k)
    refine congrArg _ (funext fun a => Fin.ext ?_)
    match a with
    | ⟨0, _⟩ =>
      show win1_0.index t (0 : Fin 2) * 5000 + 1 * p.val = win1_3.index t (0 : Fin 2) * 5000 + 1 * p.val
      rw [e0, e5]
    | ⟨1, _⟩ =>
      show win1_0.index t (1 : Fin 2) * 128 + 1 * k.val = k.val
      rw [e1]; omega
  · show V c main_arg2 (((cfg1.win 1).blk t).view.emb (ix1 k)) = V c main_arg2 (ix1 k)
    refine congrArg _ (funext fun a => Fin.ext ?_)
    match a with
    | ⟨0, _⟩ =>
      show win1_1.index t (0 : Fin 1) * 128 + 1 * k.val = k.val
      rw [e2]; omega
  · show V c main_arg3 (((cfg1.win 2).blk t).view.emb (ix2 k q)) = V c main_arg3 (ix2 k ((((cfg1.win 3).blk t).view.emb (ix2 p q)) 1))
    refine congrArg _ (funext fun a => Fin.ext ?_)
    match a with
    | ⟨0, _⟩ =>
      show win1_2.index t (0 : Fin 2) * 128 + 1 * k.val = k.val
      rw [e3]; omega
    | ⟨1, _⟩ =>
      show win1_2.index t (1 : Fin 2) * 128 + 1 * q.val = win1_3.index t (1 : Fin 2) * 128 + 1 * q.val
      rw [e4, e6]

/-- An index of the output array is in point `t`'s block iff each coordinate is in the block's range on its axis. -/
theorem mem_blk (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v44).slice (win1_3.rect t)).set ↔ _
  rw [View.set_slice_whole, Rect.mem_set_unit]
  exact Iff.rfl

/-- The ten blocks cover the output: row r is in the block of point r / 5000. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : grid1.N = 10 := N_1
  obtain ⟨t, ht⟩ : ∃ t : Fin cfg1.N, t.val = (i 0).val / 5000 :=
    ⟨⟨(i 0).val / 5000, by show (i 0).val / 5000 < grid1.N; omega⟩, rfl⟩
  obtain ⟨-, -, -, -, -, e5, e6⟩ := idx_facts t
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    rw [e5, ht]; omega
  | ⟨1, _⟩ =>
    show win1_3.index t (1 : Fin 2) * 128 ≤ (i 1).val ∧ (i 1).val < win1_3.index t (1 : Fin 2) * 128 + 128
    rw [e6]; omega

/-- THE OUTPUT ARRAY after the region: the product of `biasRelu` of the aggregated features and the bias with the weights. -/
theorem array (c : Dev nD) :
    (dat1 V c).arrAt 3 cfg1.N
      = nodeProduct (F := Ideal) (biasRelu (F := Ideal) (V c main_v43) (V c main_arg2)) (V c main_arg3) :=
  (dat1 V c).arrAt_eq_of_cover 3 _ (fun t _ => flushed_eq V c t) cover

end Cert.KernelIdeal.Region1

end
-- ==== Proof.Region2.lean ====
/-
  REGION 2 of the idealized kernel, as one whole-array function. One grid point: the body loads the whole 512×128 pooled
  features, the whole 128×64 weight matrix and the 64-entry bias, multiplies the first two (rounded to bf16, the identity at
  the ideal values) into a zero accumulator, adds the bias as a row to every row of the product, and stores the 512×64
  result, which is written back as the whole output array. Entry (r, c) is the sum over k of pooled (r, k) · weights (k, c)
  plus bias c: the host's product plus the host's bias row, `graphLinear`, of the region's three input arrays as it finds
  them — for any two proofs of the host row's side conditions, which the kernel's own program does not state.
-/
import proofs.«157026_j18786186952946_1_alg».proof.Proof.Gen.KernelIdeal.Frame
import proofs.«157026_j18786186952946_1_alg».proof.Proof.LibPlainDot
import proofs.«157026_j18786186952946_1_alg».proof.Proof.LibRowBias
import proofs.«157026_j18786186952946_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Cert.KernelIdeal.Spec Cert.LibPlainDot Cert.LibRowBias
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))
variable (h1 : S64.BroadcastsInDim S1x64 (![1] : Fin 1 → Fin S1x64.rank))
  (h2 : S1x64.BroadcastsInDim S512x64 (![0, 1] : Fin 2 → Fin S512x64.rank))

/-- The zero offsets of a whole-block access of rank two and of rank one, however spelt. -/
theorem hz2 : (![0, 0] : Fin 2 → Nat) = fun _ => 0 := funext fun a => by fin_cases a <;> rfl
theorem hz1 : (![0] : Fin 1 → Nat) = fun _ => 0 := funext fun a => by fin_cases a; rfl

/-- The body's stored value at (p, q) is `graphLinear` of whole arrays at (r, q'), when row p of the loaded features is
    row r of the array, column q of the loaded weights is column q' of the weights, and the bias entries agree. -/
theorem stored_at (x0 : Vec Ideal S512x128 .f32) (x1 : Vec Ideal S128x64 .f32) (x2 : Vec Ideal S64 .f32)
    (P : (⟨S512x128, .f32⟩ : BufTy).Contents (Elt Ideal)) (Wt : (⟨S128x64, .f32⟩ : BufTy).Contents (Elt Ideal)) (b : (⟨S64, .f32⟩ : BufTy).Contents (Elt Ideal))
    (p : Fin 512) (q : Fin 64) (r : Fin 512) (q' : Fin 64)
    (hrow : ∀ k : Fin 128, (x0 (ix2 p k) : EReal) = P (ix2 r k))
    (hcol : ∀ k : Fin 128, (x1 (ix2 k q) : EReal) = Wt (ix2 k q'))
    (hb : (x2 (ix1 q) : EReal) = b (ix1 q')) :
    k2_pay1 x0 x1 x2 (ix2 p q) = graphLinear (F := Ideal) h1 h2 P Wt b (ix2 r q') := by
  show (FloatOps.matmul (F := Ideal) dot_S512x128_S128x64_S512x64_1_0_0_1_n_n none
          (truncf .bf16 (shapeCast S512x128 x0 Facts₀.shapeCasts_S512x128_S512x128) Facts₀.bitsLt_bf16_f32)
          (truncf .bf16 x1 Facts₀.bitsLt_bf16_f32) (constant (F := Ideal) S512x64 .f32 0x00000000#32) (ix2 p q) : EReal)
        + broadcastTo S512x64 (shapeCast S1x64 x2 Facts₀.shapeCasts_S64_S1x64) Facts₀.broadcasts_S1x64_S512x64 (ix2 p q)
    = (FloatOps.dotGeneral (F := Ideal) (DotDims.plain 512 128 64) none .single P Wt (ix2 r q') : EReal)
        + broadcastInDim S512x64 ![0, 1] h2 (broadcastInDim S1x64 ![1] h1 b) (ix2 r q')
  rw [vectorRow_apply, hostRow_apply, hb]
  refine congrArg (fun z : EReal => z + (b (ix1 q') : EReal)) ?_
  exact matmul_plain_zero_eq_dotGeneral (M := 512) (K := 128) (N := 64) (B := 512) none none .single
    (truncf .bf16 (shapeCast S512x128 x0 Facts₀.shapeCasts_S512x128_S512x128) Facts₀.bitsLt_bf16_f32)
    (truncf .bf16 x1 Facts₀.bitsLt_bf16_f32) P Wt (ix2 p q) (ix2 r q')
    (fun k => by
      show (shapeCast S512x128 x0 Facts₀.shapeCasts_S512x128_S512x128 (ix2 p k) : EReal) = P (ix2 r k)
      rw [shapeCast_self]; exact hrow k)
    hcol

/-- The printed index maps at the one grid point: every window's block is its whole array. -/
theorem idx_facts : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0 :=
  (by decide +kernel : ∀ t : Fin grid2.N, _)

/-- WHAT THE POINT WRITES BACK is its block of `graphLinear` of the three input arrays as the region finds them. -/
theorem flushed_eq (c : Dev nD) (t : Fin cfg2.N) :
    (dat2 V c).flushed 3 t = ((cfg2.win 3).blk t).view.read (Elt Ideal)
      (graphLinear (F := Ideal) h1 h2 (V c main_v73) (V c main_arg5) (V c main_arg6)) := by
  show (cfg2.win 3).cut (grid2.coords t) ((dat2 V c).after 3 t) = _
  rw [after2_3]
  unfold out2_3
  rw [View.canon_unit_zero hz2]
  simp only [View.ld_unit_zero (S := S512x128) hz2, View.ld_unit_zero (S := S128x64) hz2, View.ld_unit_zero (S := S64) hz1]
  obtain ⟨e0, e1, e2, e3, e4, e5, e6⟩ := idx_facts t
  funext y
  obtain ⟨p, q, rfl⟩ : ∃ (p : Fin 512) (q : Fin 64), y = ix2 p q := ⟨y 0, y 1, eq_ix2 y⟩
  show k2_pay1 (iblk2 V c 0 t) (iblk2 V c 1 t) (iblk2 V c 2 t) (ix2 p q)
    = graphLinear (F := Ideal) h1 h2 (V c main_v73) (V c main_arg5) (V c main_arg6) (((cfg2.win 3).blk t).view.emb (ix2 p q))
  rw [eq_ix2 (((cfg2.win 3).blk t).view.emb (ix2 p q))]
  refine stored_at h1 h2 (iblk2 V c 0 t) (iblk2 V c 1 t) (iblk2 V c 2 t) (V c main_v73) (V c main_arg5) (V c main_arg6) p q _ _
    (fun k => ?_) (fun k => ?_) ?_
  · show V c main_v73 (((cfg2.win 0).blk t).view.emb (ix2 p k)) = V c main_v73 (ix2 ((((cfg2.win 3).blk t).view.emb (ix2 p q)) 0) k)
    refine congrArg _ (funext fun a => Fin.ext ?_)
    match a with
    | ⟨0, _⟩ =>
      show win2_0.index t (0 : Fin 2) * 512 + 1 * p.val = win2_3.index t (0 : Fin 2) * 512 + 1 * p.val
      rw [e0, e5]
    | ⟨1, _⟩ =>
      show win2_0.index t (1 : Fin 2) * 128 + 1 * k.val = k.val
      rw [e1]; omega
  · show V c main_arg5 (((cfg2.win 1).blk t).view.emb (ix2 k q)) = V c main_arg5 (ix2 k ((((cfg2.win 3).blk t).view.emb (ix2 p q)) 1))
    refine congrArg _ (funext fun a => Fin.ext ?_)
    match a with
    | ⟨0, _⟩ =>
      show win2_1.index t (0 : Fin 2) * 128 + 1 * k.val = k.val
      rw [e2]; omega
    | ⟨1, _⟩ =>
      show win2_1.index t (1 : Fin 2) * 64 + 1 * q.val = win2_3.index t (1 : Fin 2) * 64 + 1 * q.val
      rw [e3, e6]
  · show V c main_arg6 (((cfg2.win 2).blk t).view.emb (ix1 q)) = V c main_arg6 (ix1 ((((cfg2.win 3).blk t).view.emb (ix2 p q)) 1))
    refine congrArg _ (funext fun a => Fin.ext ?_)
    match a with
    | ⟨0, _⟩ =>
      show win2_2.index t (0 : Fin 1) * 64 + 1 * q.val = win2_3.index t (1 : Fin 2) * 64 + 1 * q.val
      rw [e4, e6]

/-- An index of the output array is in the point's block iff each coordinate is in the block's range on its axis. -/
theorem mem_blk (t : Fin cfg2.N) (i : S512x64.Idx) :
    i ∈ ((cfg2.win 3).blk t).view.set ↔ ∀ a : Fin 2, win2_3.index t a * S512x64.size a ≤ (i a).val
      ∧ (i a).val < win2_3.index t a * S512x64.size a + S512x64.size a := by
  show i ∈ ((View.whole main_v74).slice (win2_3.rect t)).set ↔ _
  rw [View.set_slice_whole, Rect.mem_set_unit]
  exact Iff.rfl

/-- The one block covers the output. -/
theorem cover (i : S512x64.Idx) :
    ∃ t : Fin cfg2.N, (cfg2.win 3).flush t = true ∧ i ∈ ((cfg2.win 3).blk t).view.set := by
  have hi0 : (i 0).val < 512 := (i 0).isLt
  have hi1 : (i 1).val < 64 := (i 1).isLt
  obtain ⟨-, -, -, -, -, e5, e6⟩ := idx_facts t2_0
  refine ⟨t2_0, flush2_3 t2_0, ?_⟩
  rw [mem_blk]
  intro a
  match a with
  | ⟨0, _⟩ =>
    show win2_3.index t2_0 (0 : Fin 2) * 512 ≤ (i 0).val ∧ (i 0).val < win2_3.index t2_0 (0 : Fin 2) * 512 + 512
    rw [e5]; omega
  | ⟨1, _⟩ =>
    show win2_3.index t2_0 (1 : Fin 2) * 64 ≤ (i 1).val ∧ (i 1).val < win2_3.index t2_0 (1 : Fin 2) * 64 + 64
    rw [e6]; omega

/-- THE OUTPUT ARRAY after the region: `graphLinear` of the pooled features, the weights and the bias as the region found them. -/
theorem array (c : Dev nD) :
    (dat2 V c).arrAt 3 cfg2.N
      = graphLinear (F := Ideal) h1 h2 (V c main_v73) (V c main_arg5) (V c main_arg6) :=
  (dat2 V c).arrAt_eq_of_cover 3 _ (fun t _ => flushed_eq V h1 h2 c t) cover

end Cert.KernelIdeal.Region2

end
-- ==== Proof.KernelValue.lean ====
/-
  The idealized kernel's result as ONE function of its nine argument arrays. @main's buffer contents are followed
  through its ten segments, boundary by boundary, from the launch memory `m`: at each boundary the few buffers a later
  segment reads are stated as functions of the arguments —
    * before region 0: the edge endpoints with self loops, the edge coefficients, the arguments as launched;
    * after region 0: the product of the node features with the first weights (the region's whole-array function);
    * before region 1: its aggregate along the edges;
    * after region 1: the product of (aggregate + first bias, clipped at zero) with the second weights;
    * before region 2: the aggregate of that product, plus the second bias, clipped at zero, mean-pooled;
    * after region 2: the pooled features times the last weights plus the last bias —
  a host stretch by its lemma over an arbitrary valuation, a region by its whole-array function at the region's entry
  contents, and a buffer a segment does not write by the fold's own "elsewhere unchanged" lemmas. The last line is the
  network of the arguments (`Spec.network`).
-/
import proofs.«157026_j18786186952946_1_alg».proof.Proof.Gen.KernelIdeal.Frame
import proofs.«157026_j18786186952946_1_alg».proof.Proof.Spec
import proofs.«157026_j18786186952946_1_alg».proof.Proof.HostStages
import proofs.«157026_j18786186952946_1_alg».proof.Proof.Region0
import proofs.«157026_j18786186952946_1_alg».proof.Proof.Region1
import proofs.«157026_j18786186952946_1_alg».proof.Proof.Region2

set_option maxRecDepth 16384

noncomputable section

namespace Cert.KernelIdeal.Whole

open Cert.KernelIdeal Cert.KernelIdeal.Gen Cert.KernelIdeal.Spec Cert.KernelIdeal.Stretch
open Idealize.ShloMosaic Idealize.ShloMosaic.TcCoe Idealize.SL.Sem

variable (m : (ℓ : Loc nD τ sig) → Buf (Elt Ideal) ℓ) (ρ : Dev nD → PrngReg) (c : Dev nD)

/-! ## Before region 0 -/

theorem at3_v5 : W3 m ρ c (Proc.devRef .tc main_v5) = (srcs (F := Ideal) (m ((c : Thread nD τ).loc main_arg7))) := pre_srcs (W0 m ρ c)
theorem at3_v6 : W3 m ρ c (Proc.devRef .tc main_v6) = (dsts (F := Ideal) (m ((c : Thread nD τ).loc main_arg7))) := pre_dsts (W0 m ρ c)
theorem at3_v29 : W3 m ρ c (Proc.devRef .tc main_v29) = (coef (F := Ideal) (srcs (F := Ideal) (m ((c : Thread nD τ).loc main_arg7))) (dsts (F := Ideal) (m ((c : Thread nD τ).loc main_arg7)))) := pre_coef (W0 m ρ c)
theorem at3_arg0 : W3 m ρ c (Proc.devRef .tc main_arg0) = (m ((c : Thread nD τ).loc main_arg0)) := pre_keep_arg0 (W0 m ρ c)
theorem at3_arg1 : W3 m ρ c (Proc.devRef .tc main_arg1) = (m ((c : Thread nD τ).loc main_arg1)) := pre_keep_arg1 (W0 m ρ c)
theorem at3_arg2 : W3 m ρ c (Proc.devRef .tc main_arg2) = (m ((c : Thread nD τ).loc main_arg2)) := pre_keep_arg2 (W0 m ρ c)
theorem at3_arg3 : W3 m ρ c (Proc.devRef .tc main_arg3) = (m ((c : Thread nD τ).loc main_arg3)) := pre_keep_arg3 (W0 m ρ c)
theorem at3_arg4 : W3 m ρ c (Proc.devRef .tc main_arg4) = (m ((c : Thread nD τ).loc main_arg4)) := pre_keep_arg4 (W0 m ρ c)
theorem at3_arg5 : W3 m ρ c (Proc.devRef .tc main_arg5) = (m ((c : Thread nD τ).loc main_arg5)) := pre_keep_arg5 (W0 m ρ c)
theorem at3_arg6 : W3 m ρ c (Proc.devRef .tc main_arg6) = (m ((c : Thread nD τ).loc main_arg6)) := pre_keep_arg6 (W0 m ρ c)
theorem at3_arg8 : W3 m ρ c (Proc.devRef .tc main_arg8) = (m ((c : Thread nD τ).loc main_arg8)) := pre_keep_arg8 (W0 m ρ c)

/-! ## After region 0 -/

/-- Region 0 leaves the product of the node features with the first weights. -/
theorem at4_v30 : W4 m ρ c (Proc.devRef .tc main_v30) = (nodeProduct (F := Ideal) (m ((c : Thread nD τ).loc main_arg0)) (m ((c : Thread nD τ).loc main_arg1))) := by
  rw [show W4 m ρ c (Proc.devRef .tc main_v30) = (dat0 (V3 m ρ) c).arrAt 2 cfg0.N from W4_arr m ρ c 2, Region0.array]
  show nodeProduct (F := Ideal) (W3 m ρ c (Proc.devRef .tc main_arg0)) (W3 m ρ c (Proc.devRef .tc main_arg1)) = _
  rw [at3_arg0, at3_arg1]
theorem at4_v5 : W4 m ρ c (Proc.devRef .tc main_v5) = (srcs (F := Ideal) (m ((c : Thread nD τ).loc main_arg7))) := (W4_of_ne m ρ c main_v5 (by decide)).trans (at3_v5 m ρ c)
theorem at4_v6 : W4 m ρ c (Proc.devRef .tc main_v6) = (dsts (F := Ideal) (m ((c : Thread nD τ).loc main_arg7))) := (W4_of_ne m ρ c main_v6 (by decide)).trans (at3_v6 m ρ c)
theorem at4_v29 : W4 m ρ c (Proc.devRef .tc main_v29) = (coef (F := Ideal) (srcs (F := Ideal) (m ((c : Thread nD τ).loc main_arg7))) (dsts (F := Ideal) (m ((c : Thread nD τ).loc main_arg7)))) := (W4_of_ne m ρ c main_v29 (by decide)).trans (at3_v29 m ρ c)
theorem at4_arg2 : W4 m ρ c (Proc.devRef .tc main_arg2) = (m ((c : Thread nD τ).loc main_arg2)) := (W4_of_ne m ρ c main_arg2 (by decide)).trans (at3_arg2 m ρ c)
theorem at4_arg3 : W4 m ρ c (Proc.devRef .tc main_arg3) = (m ((c : Thread nD τ).loc main_arg3)) := (W4_of_ne m ρ c main_arg3 (by decide)).trans (at3_arg3 m ρ c)
theorem at4_arg4 : W4 m ρ c (Proc.devRef .tc main_arg4) = (m ((c : Thread nD τ).loc main_arg4)) := (W4_of_ne m ρ c main_arg4 (by decide)).trans (at3_arg4 m ρ c)
theorem at4_arg5 : W4 m ρ c (Proc.devRef .tc main_arg5) = (m ((c : Thread nD τ).loc main_arg5)) := (W4_of_ne m ρ c main_arg5 (by decide)).trans (at3_arg5 m ρ c)
theorem at4_arg6 : W4 m ρ c (Proc.devRef .tc main_arg6) = (m ((c : Thread nD τ).loc main_arg6)) := (W4_of_ne m ρ c main_arg6 (by decide)).trans (at3_arg6 m ρ c)
theorem at4_arg8 : W4 m ρ c (Proc.devRef .tc main_arg8) = (m ((c : Thread nD τ).loc main_arg8)) := (W4_of_ne m ρ c main_arg8 (by decide)).trans (at3_arg8 m ρ c)

/-! ## Before region 1 -/

/-- The host aggregates that product along the edges. -/
theorem at5_v43 : W5 m ρ c (Proc.devRef .tc main_v43) = (aggregate (F := Ideal) (nodeProduct (F := Ideal) (m ((c : Thread nD τ).loc main_arg0)) (m ((c : Thread nD τ).loc main_arg1))) (srcs (F := Ideal) (m ((c : Thread nD τ).loc main_arg7))) (dsts (F := Ideal) (m ((c : Thread nD τ).loc main_arg7))) (coef (F := Ideal) (srcs (F := Ideal) (m ((c : Thread nD τ).loc main_arg7))) (dsts (F := Ideal) (m ((c : Thread nD τ).loc main_arg7))))) := by
  refine (mid_aggregate (W4 m ρ c)).trans ?_
  rw [at4_v30, at4_v5, at4_v6, at4_v29]
theorem at5_v5 : W5 m ρ c (Proc.devRef .tc main_v5) = (srcs (F := Ideal) (m ((c : Thread nD τ).loc main_arg7))) := (mid_keep_v5 (W4 m ρ c)).trans (at4_v5 m ρ c)
theorem at5_v6 : W5 m ρ c (Proc.devRef .tc main_v6) = (dsts (F := Ideal) (m ((c : Thread nD τ).loc main_arg7))) := (mid_keep_v6 (W4 m ρ c)).trans (at4_v6 m ρ c)
theorem at5_v29 : W5 m ρ c (Proc.devRef .tc main_v29) = (coef (F := Ideal) (srcs (F := Ideal) (m ((c : Thread nD τ).loc main_arg7))) (dsts (F := Ideal) (m ((c : Thread nD τ).loc main_arg7)))) := (mid_keep_v29 (W4 m ρ c)).trans (at4_v29 m ρ c)
theorem at5_arg2 : W5 m ρ c (Proc.devRef .tc main_arg2) = (m ((c : Thread nD τ).loc main_arg2)) := (mid_keep_arg2 (W4 m ρ c)).trans (at4_arg2 m ρ c)
theorem at5_arg3 : W5 m ρ c (Proc.devRef .tc main_arg3) = (m ((c : Thread nD τ).loc main_arg3)) := (mid_keep_arg3 (W4 m ρ c)).trans (at4_arg3 m ρ c)
theorem at5_arg4 : W5 m ρ c (Proc.devRef .tc main_arg4) = (m ((c : Thread nD τ).loc main_arg4)) := (mid_keep_arg4 (W4 m ρ c)).trans (at4_arg4 m ρ c)
theorem at5_arg5 : W5 m ρ c (Proc.devRef .tc main_arg5) = (m ((c : Thread nD τ).loc main_arg5)) := (mid_keep_arg5 (W4 m ρ c)).trans (at4_arg5 m ρ c)
theorem at5_arg6 : W5 m ρ c (Proc.devRef .tc main_arg6) = (m ((c : Thread nD τ).loc main_arg6)) := (mid_keep_arg6 (W4 m ρ c)).trans (at4_arg6 m ρ c)
theorem at5_arg8 : W5 m ρ c (Proc.devRef .tc main_arg8) = (m ((c : Thread nD τ).loc main_arg8)) := (mid_keep_arg8 (W4 m ρ c)).trans (at4_arg8 m ρ c)

/-! ## After region 1 -/

/-- Region 1 leaves the product of (aggregate + first bias, clipped at zero) with the second weights. -/
theorem at6_v44 : W6 m ρ c (Proc.devRef .tc main_v44) = (nodeProduct (F := Ideal) (biasRelu (F := Ideal) (aggregate (F := Ideal) (nodeProduct (F := Ideal) (m ((c : Thread nD τ).loc main_arg0)) (m ((c : Thread nD τ).loc main_arg1))) (srcs (F := Ideal) (m ((c : Thread nD τ).loc main_arg7))) (dsts (F := Ideal) (m ((c : Thread nD τ).loc main_arg7))) (coef (F := Ideal) (srcs (F := Ideal) (m ((c : Thread nD τ).loc main_arg7))) (dsts (F := Ideal) (m ((c : Thread nD τ).loc main_arg7))))) (m ((c : Thread nD τ).loc main_arg2))) (m ((c : Thread nD τ).loc main_arg3))) := by
  rw [show W6 m ρ c (Proc.devRef .tc main_v44) = (dat1 (V5 m ρ) c).arrAt 3 cfg1.N from W6_arr m ρ c 3, Region1.array]
  show nodeProduct (F := Ideal) (biasRelu (F := Ideal) (W5 m ρ c (Proc.devRef .tc main_v43)) (W5 m ρ c (Proc.devRef .tc main_arg2))) (W5 m ρ c (Proc.devRef .tc main_arg3)) = _
  rw [at5_v43, at5_arg2, at5_arg3]
theorem at6_v5 : W6 m ρ c (Proc.devRef .tc main_v5) = (srcs (F := Ideal) (m ((c : Thread nD τ).loc main_arg7))) := (W6_of_ne m ρ c main_v5 (by decide)).trans (at5_v5 m ρ c)
theorem at6_v6 : W6 m ρ c (Proc.devRef .tc main_v6) = (dsts (F := Ideal) (m ((c : Thread nD τ).loc main_arg7))) := (W6_of_ne m ρ c main_v6 (by decide)).trans (at5_v6 m ρ c)
theorem at6_v29 : W6 m ρ c (Proc.devRef .tc main_v29) = (coef (F := Ideal) (srcs (F := Ideal) (m ((c : Thread nD τ).loc main_arg7))) (dsts (F := Ideal) (m ((c : Thread nD τ).loc main_arg7)))) := (W6_of_ne m ρ c main_v29 (by decide)).trans (at5_v29 m ρ c)
theorem at6_arg4 : W6 m ρ c (Proc.devRef .tc main_arg4) = (m ((c : Thread nD τ).loc main_arg4)) := (W6_of_ne m ρ c main_arg4 (by decide)).trans (at5_arg4 m ρ c)
theorem at6_arg5 : W6 m ρ c (Proc.devRef .tc main_arg5) = (m ((c : Thread nD τ).loc main_arg5)) := (W6_of_ne m ρ c main_arg5 (by decide)).trans (at5_arg5 m ρ c)
theorem at6_arg6 : W6 m ρ c (Proc.devRef .tc main_arg6) = (m ((c : Thread nD τ).loc main_arg6)) := (W6_of_ne m ρ c main_arg6 (by decide)).trans (at5_arg6 m ρ c)
theorem at6_arg8 : W6 m ρ c (Proc.devRef .tc main_arg8) = (m ((c : Thread nD τ).loc main_arg8)) := (W6_of_ne m ρ c main_arg8 (by decide)).trans (at5_arg8 m ρ c)

/-! ## Before region 2 -/

/-- The host aggregates the second product, adds the second bias, clips at zero and mean-pools over the graphs. -/
theorem at9_v73 : W9 m ρ c (Proc.devRef .tc main_v73) = (meanPool (F := Ideal) (biasRelu (F := Ideal) (aggregate (F := Ideal) (nodeProduct (F := Ideal) (biasRelu (F := Ideal) (aggregate (F := Ideal) (nodeProduct (F := Ideal) (m ((c : Thread nD τ).loc main_arg0)) (m ((c : Thread nD τ).loc main_arg1))) (srcs (F := Ideal) (m ((c : Thread nD τ).loc main_arg7))) (dsts (F := Ideal) (m ((c : Thread nD τ).loc main_arg7))) (coef (F := Ideal) (srcs (F := Ideal) (m ((c : Thread nD τ).loc main_arg7))) (dsts (F := Ideal) (m ((c : Thread nD τ).loc main_arg7))))) (m ((c : Thread nD τ).loc main_arg2))) (m ((c : Thread nD τ).loc main_arg3))) (srcs (F := Ideal) (m ((c : Thread nD τ).loc main_arg7))) (dsts (F := Ideal) (m ((c : Thread nD τ).loc main_arg7))) (coef (F := Ideal) (srcs (F := Ideal) (m ((c : Thread nD τ).loc main_arg7))) (dsts (F := Ideal) (m ((c : Thread nD τ).loc main_arg7))))) (m ((c : Thread nD τ).loc main_arg4))) (m ((c : Thread nD τ).loc main_arg8))) := by
  refine (post_pool (W6 m ρ c)).trans ?_
  rw [at6_v44, at6_v5, at6_v6, at6_v29, at6_arg4, at6_arg8]
theorem at9_arg5 : W9 m ρ c (Proc.devRef .tc main_arg5) = (m ((c : Thread nD τ).loc main_arg5)) := (post_keep_arg5 (W6 m ρ c)).trans (at6_arg5 m ρ c)
theorem at9_arg6 : W9 m ρ c (Proc.devRef .tc main_arg6) = (m ((c : Thread nD τ).loc main_arg6)) := (post_keep_arg6 (W6 m ρ c)).trans (at6_arg6 m ρ c)

/-! ## After region 2: the result -/

/-- The result array after the run is the network of the nine argument arrays as launched. -/
theorem result (h1 : S64.BroadcastsInDim S1x64 (![1] : Fin 1 → Fin S1x64.rank))
    (h2 : S1x64.BroadcastsInDim S512x64 (![0, 1] : Fin 2 → Fin S512x64.rank)) :
    W10 m ρ c (Proc.devRef .tc main_v74)
      = network (F := Ideal) h1 h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [show W10 m ρ c (Proc.devRef .tc main_v74) = (dat2 (V9 m ρ) c).arrAt 3 cfg2.N from W10_arr m ρ c 3, Region2.array (V9 m ρ) h1 h2]
  show graphLinear (F := Ideal) h1 h2 (W9 m ρ c (Proc.devRef .tc main_v73)) (W9 m ρ c (Proc.devRef .tc main_arg5)) (W9 m ρ c (Proc.devRef .tc main_arg6)) = _
  rw [at9_v73, at9_arg5, at9_arg6]
  rfl

end Cert.KernelIdeal.Whole

end
-- ==== Proof.RefIsNetwork.lean ====
/-
  The idealized reference's result is the same network of the argument arrays. The reference's run ends with its result
  at the composed term of its 142 host operations; that term is, stage by stage, the network's definition — the same
  endpoints with self loops, degrees, coefficients, two aggregations with bias and clipping, the mean pool, the last linear
  layer — with the host's three matrix products where the kernel has its three regions. The reference computes the
  endpoints and the coefficients once per layer where the network's definition names them once; the terms are the same.
  Nothing is computed here: both sides unfold to one term, up to the names the two programs give their shape facts.
-/
import proofs.«157026_j18786186952946_1_alg».proof.Proof.RefRun
import proofs.«157026_j18786186952946_1_alg».proof.Proof.Spec

set_option maxRecDepth 16384

noncomputable section

namespace Cert.ReferenceIdeal.RefValue

open Cert.ReferenceIdeal Cert.ReferenceIdeal.Gen Cert.ReferenceIdeal.ValueP
open Idealize.ShloMosaic Idealize.ShloMosaic.TcCoe Idealize.SL.Sem

/-- The reference's result term is the network of its nine argument arrays. -/
theorem result_eq (m : (ℓ : Loc nD τ sig) → Buf (Elt Ideal) ℓ) (c : Dev nD) :
    res_main_v107 (F := Ideal) m c
      = Cert.KernelIdeal.Spec.network (F := Ideal) Cert.ReferenceIdeal.Facts₀.bcast_S64_S1x64_1
          Cert.ReferenceIdeal.Facts₀.bcast_S1x64_S512x64_0_1
          (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold res_main_v107 Cert.KernelIdeal.Spec.network Cert.KernelIdeal.Spec.graphLinear Cert.KernelIdeal.Spec.meanPool
    Cert.KernelIdeal.Spec.biasRelu Cert.KernelIdeal.Spec.aggregate Cert.KernelIdeal.Spec.nodeProduct Cert.KernelIdeal.Spec.coef
    Cert.KernelIdeal.Spec.invSqrtDeg Cert.KernelIdeal.Spec.degree Cert.KernelIdeal.Spec.wrap Cert.KernelIdeal.Spec.srcs
    Cert.KernelIdeal.Spec.dsts
  rfl

end Cert.ReferenceIdeal.RefValue

end
-- ==== Proof.lean ====
/- The proof of `Cert.Claim` (proofs.«157026_j18786186952946_1_alg».proof.Defs): a two-layer graph convolution with a mean pool and a final linear layer, as a
   Pallas program of three row-tiled matrix-product kernels among host operations, against its plain reference.

   At the ideal values both programs compute ONE function of the nine argument arrays, `Spec.network`: with the edge
   endpoints extended by one self loop per node and each edge weighted by deg^(-1/2) of its two ends, a layer multiplies the
   node features by a weight matrix, adds up along every edge the weighted source row at the destination, adds a bias row
   and clips at zero; the features of each graph are then averaged and sent through a last linear layer. The reference
   spells every step as a host operation; the kernel runs the three matrix products as pipelined regions (the second with
   the first layer's bias and clipping fused in front of it, the third with the last bias fused behind it) and computes
   the edge coefficients once instead of once per layer. A product of a block of rows is the block of rows of the product,
   rounding an operand to bf16 is the identity on extended reals, and adding a row or clipping acts entry by entry, so each
   region's output array is the host's product of whole arrays (Region0 / Region1 / Region2); the host stretches between
   the regions are the reference's own operations (HostStages); composing them along @main gives the kernel's result as
   the network of its arguments (KernelValue), which is what the reference's result term is (RefIsNetwork). No law of
   arithmetic beyond reading a product at an index is used, so the precondition is never opened.

   The three frames: the kernel's two are the generated frame certificates; the reference has no kernel, and its frame is its
   run with the result dropped. The idealization rewrote nothing, so `preserves` is trivial. -/
import proofs.«157026_j18786186952946_1_alg».proof.Defs
import proofs.«157026_j18786186952946_1_alg».proof.Proof.Gen.Kernel
import proofs.«157026_j18786186952946_1_alg».proof.Proof.Gen.Kernel.Frame
import proofs.«157026_j18786186952946_1_alg».proof.Proof.Gen.KernelIdeal
import proofs.«157026_j18786186952946_1_alg».proof.Proof.Gen.KernelIdeal.Frame
import proofs.«157026_j18786186952946_1_alg».proof.Proof.Gen.ReferenceIdeal
import proofs.«157026_j18786186952946_1_alg».proof.Proof.Gen.Pre_finite_inputs
import proofs.«157026_j18786186952946_1_alg».proof.Proof.KernelRun
import proofs.«157026_j18786186952946_1_alg».proof.Proof.KernelValue
import proofs.«157026_j18786186952946_1_alg».proof.Proof.RefRun
import proofs.«157026_j18786186952946_1_alg».proof.Proof.RefIsNetwork
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end with the network of those arguments in their result. -/
theorem algebraic : Cert.algebraic_KernelIdeal_ReferenceIdeal := by
  intro m ρ m' ρ' _ hagree
  refine ⟨fun c => Cert.KernelIdeal.Spec.network (F := Ideal) Cert.ReferenceIdeal.Facts₀.bcast_S64_S1x64_1
      Cert.ReferenceIdeal.Facts₀.bcast_S1x64_S512x64_0_1
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Whole.result m ρ c _ _), (h c).2⟩)
      (Cert.KernelIdeal.Named.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8⟩ := hagree c
    rw [Cert.ReferenceIdeal.RefValue.result_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
